-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64x64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S10000x64 : Shape := ⟨2, ![10000, 64]⟩
abbrev S10000x1 : Shape := ⟨2, ![10000, 1]⟩
abbrev S1300000x64 : Shape := ⟨2, ![1300000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 63
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000x64, .f32⟩
  | .hbm, ⟨40, _⟩ => ⟨S_, .f32⟩
  | .hbm, ⟨41, _⟩ => ⟨S100000x64, .f32⟩
  | .hbm, ⟨42, _⟩ => ⟨S1300000x1, .i32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S1x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10000x64_S10000x64 : S10000x64.ShapeCasts S10000x64
  broadcasts_S1x64_S10000x64 : S1x64.Broadcasts S10000x64
  scatter_S100000_S1300000x1_S1300000_n_0_0_1_wf : ScatterDims.WF S100000 S1300000x1 S1300000 [] [0] [0] 1
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .i1⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1300000, .i32⟩
  | .hbm, ⟨78, _⟩ => ⟨S1300000, .i1⟩
  | .hbm, ⟨79, _⟩ => ⟨S_, .i32⟩
  | .hbm, ⟨80, _⟩ => ⟨S1300000, .i32⟩
  | .hbm, ⟨81, _⟩ => ⟨S1300000, .i32⟩
  | .hbm, ⟨82, _⟩ => ⟨S1300000, .i32⟩
  | .hbm, ⟨83, _⟩ => ⟨S1300000x1, .i32⟩
  | .hbm, ⟨84, _⟩ => ⟨S1300000x64, .f32⟩
  | .hbm, ⟨85, _⟩ => ⟨S1300000x1, .f32⟩
  | .hbm, ⟨86, _⟩ => ⟨S1300000x64, .f32⟩
  | .hbm, ⟨87, _⟩ => ⟨S1300000x64, .f32⟩
  | .hbm, ⟨88, _⟩ => ⟨S_, .f32⟩
  | .hbm, ⟨89, _⟩ => ⟨S100000x64, .f32⟩
  | .hbm, ⟨90, _⟩ => ⟨S1300000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Net.lean ====
/-
  The network's two dense stages as whole-array functions of exact values.

  `lin X W d`: the features `X` (one row per node) times the weights `W`, each row then scaled by that node's
  entry of the column `d`.  `post A d b a`: each row of `A` scaled by the node's entry of `d`, the bias row `b`
  added, then the leaky unit with slope row `a` (`v` where `v ≥ 0`, else `a · v`).  A layer of the network is
  `post` of the aggregated `lin`; the middle stage is `lin` of a `post`.
-/
import Idealize.ShloMosaic.Lib.ValueIdx
import Idealize.ShloMosaic.PureOps.Ideal.Laws

noncomputable section

open scoped BigOperators

namespace Cert.Net

open Idealize.ShloMosaic Idealize.ShloMosaic.ValueIdx

/-- The row of a matrix index, at its literal extent. -/
def rowOf {n m : ℕ} (i : (⟨2, ![n, m]⟩ : Shape).Idx) : Fin n := ⟨(i 0).val, idx2_lt0 i⟩
/-- The column of a matrix index, at its literal extent. -/
def colOf {n m : ℕ} (i : (⟨2, ![n, m]⟩ : Shape).Idx) : Fin m := ⟨(i 1).val, idx2_lt1 i⟩
/-- A matrix index is its row and column. -/
theorem eq_rc {n m : ℕ} (i : (⟨2, ![n, m]⟩ : Shape).Idx) : i = ix2 (rowOf i) (colOf i) := by
  funext a; match a with | ⟨0, _⟩ => rfl | ⟨1, _⟩ => rfl
@[simp] theorem rowOf_ix2 {n m : ℕ} (p : Fin n) (q : Fin m) : rowOf (ix2 p q) = p := rfl
@[simp] theorem colOf_ix2 {n m : ℕ} (p : Fin n) (q : Fin m) : colOf (ix2 p q) = q := rfl

/-- The leaky unit with slope `a`: `v` where `v ≥ 0`, else `a · v`. -/
def act (a v : EReal) : EReal := Scalar.select (Ideal.cmp .oge v (Ideal.ofBits .f32 0x00000000#32)) v (a * v)

/-- Rows of `X` times `W`, row `p` scaled by `d p`. -/
def lin {n : ℕ} (X : (⟨2, ![n, 64]⟩ : Shape).Idx → EReal) (W : (⟨2, ![64, 64]⟩ : Shape).Idx → EReal)
    (d : (⟨2, ![n, 1]⟩ : Shape).Idx → EReal) : (⟨2, ![n, 64]⟩ : Shape).Idx → EReal :=
  fun i => (∑ k : Fin 64, X (ix2 (rowOf i) k) * W (ix2 k (colOf i))) * d (ix2 (rowOf i) (0 : Fin 1))

/-- Row `p` of `A` scaled by `d p`, plus the bias row, through the leaky unit. -/
def post {n : ℕ} (A : (⟨2, ![n, 64]⟩ : Shape).Idx → EReal) (d : (⟨2, ![n, 1]⟩ : Shape).Idx → EReal)
    (b a : (⟨2, ![1, 64]⟩ : Shape).Idx → EReal) : (⟨2, ![n, 64]⟩ : Shape).Idx → EReal :=
  fun i => act (a (ix2 (0 : Fin 1) (colOf i))) (A i * d (ix2 (rowOf i) (0 : Fin 1)) + b (ix2 (0 : Fin 1) (colOf i)))

end Cert.Net

end
-- ==== Proof.KBody.lean ====
/-
  The three kernel bodies as functions of their blocks.

  Each body stores one value.  Read entry by entry at exact values, the first body's value is `lin` of its three
  blocks (rows times weights, each row scaled by its entry of the column block); the last body's is `post` of its
  four blocks (row scaled, bias added, leaky unit); the middle body's is `lin` of the `post` of its first four
  blocks against the weights and the column block.  A change of float format is the identity at exact values, a
  column `[n, 1]` broadcast along rows reads the row's entry, a row `[1, 64]` broadcast along columns reads the
  column's entry, and a matrix product into a zero accumulator is the sum over the contracted position.
-/
import proofs.«120536_j1623497638364_2_alg».proof.Proof.Gen.KernelIdeal.Skeleton
import proofs.«120536_j1623497638364_2_alg».proof.Proof.LibColumns
import proofs.«120536_j1623497638364_2_alg».proof.Proof.LibMatmul
import proofs.«120536_j1623497638364_2_alg».proof.Proof.Net
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Net

/-- A column cast to its own shape and broadcast along the rows reads, at `(p, q)`, the column at row `p`. -/
theorem col_bcast {n : ℕ} (v : (⟨2, ![n, 1]⟩ : Shape).Idx → EReal)
    (h1 : (⟨2, ![n, 1]⟩ : Shape).ShapeCasts ⟨2, ![n, 1]⟩) (h2 : (⟨2, ![n, 1]⟩ : Shape).Broadcasts ⟨2, ![n, 64]⟩)
    (p : Fin n) (q : Fin 64) :
    broadcastTo ⟨2, ![n, 64]⟩ (shapeCast ⟨2, ![n, 1]⟩ v h1) h2 (ix2 p q) = v (ix2 p (0 : Fin 1)) :=
  (Cert.Columns.broadcastTo_a1_ab_apply _ h2 p q).trans (congrFun (shapeCast_self v h1) _)

/-- A row cast to its own shape and broadcast along the columns reads, at `(p, q)`, the row at column `q`. -/
theorem row_bcast {n : ℕ} (v : (⟨2, ![1, 64]⟩ : Shape).Idx → EReal)
    (h1 : (⟨2, ![1, 64]⟩ : Shape).ShapeCasts ⟨2, ![1, 64]⟩) (h2 : (⟨2, ![1, 64]⟩ : Shape).Broadcasts ⟨2, ![n, 64]⟩)
    (p : Fin n) (q : Fin 64) :
    broadcastTo ⟨2, ![n, 64]⟩ (shapeCast ⟨2, ![1, 64]⟩ v h1) h2 (ix2 p q) = v (ix2 (0 : Fin 1) q) :=
  (broadcastTo_1b_ab_apply _ h2 p q).trans (congrFun (shapeCast_self v h1) _)

/-- The operations "scale each row, add the bias row, leaky unit with the slope row" are `post`. -/
theorem post_ops {n : ℕ} (v0 : FVec Ideal ⟨2, ![n, 64]⟩ .f32) (v2 : FVec Ideal ⟨2, ![n, 1]⟩ .f32)
    (v6 v12 : FVec Ideal ⟨2, ![1, 64]⟩ .f32)
    (hc0 : (⟨2, ![n, 64]⟩ : Shape).ShapeCasts ⟨2, ![n, 64]⟩)
    (hc1 : (⟨2, ![n, 1]⟩ : Shape).ShapeCasts ⟨2, ![n, 1]⟩) (hb1 : (⟨2, ![n, 1]⟩ : Shape).Broadcasts ⟨2, ![n, 64]⟩)
    (hc2 : (⟨2, ![1, 64]⟩ : Shape).ShapeCasts ⟨2, ![1, 64]⟩) (hb2 : (⟨2, ![1, 64]⟩ : Shape).Broadcasts ⟨2, ![n, 64]⟩) :
    select (cmpf .oge
        (addf (mulf (shapeCast ⟨2, ![n, 64]⟩ v0 hc0) (broadcastTo ⟨2, ![n, 64]⟩ (shapeCast ⟨2, ![n, 1]⟩ v2 hc1) hb1))
          (broadcastTo ⟨2, ![n, 64]⟩ (shapeCast ⟨2, ![1, 64]⟩ v6 hc2) hb2))
        (broadcast ⟨2, ![n, 64]⟩ (Scalar.ofBits (F := Ideal) .f32 0x00000000#32)))
      (addf (mulf (shapeCast ⟨2, ![n, 64]⟩ v0 hc0) (broadcastTo ⟨2, ![n, 64]⟩ (shapeCast ⟨2, ![n, 1]⟩ v2 hc1) hb1))
        (broadcastTo ⟨2, ![n, 64]⟩ (shapeCast ⟨2, ![1, 64]⟩ v6 hc2) hb2))
      (mulf (broadcastTo ⟨2, ![n, 64]⟩ (shapeCast ⟨2, ![1, 64]⟩ v12 hc2) hb2)
        (addf (mulf (shapeCast ⟨2, ![n, 64]⟩ v0 hc0) (broadcastTo ⟨2, ![n, 64]⟩ (shapeCast ⟨2, ![n, 1]⟩ v2 hc1) hb1))
          (broadcastTo ⟨2, ![n, 64]⟩ (shapeCast ⟨2, ![1, 64]⟩ v6 hc2) hb2)))
    = Net.post v0 v2 v6 v12 := by
  funext j
  obtain ⟨p, q, rfl⟩ : ∃ (p : Fin n) (q : Fin 64), j = ix2 p q := ⟨j 0, j 1, eq_ix2 j⟩
  have e9 : addf (mulf (shapeCast ⟨2, ![n, 64]⟩ v0 hc0) (broadcastTo ⟨2, ![n, 64]⟩ (shapeCast ⟨2, ![n, 1]⟩ v2 hc1) hb1))
        (broadcastTo ⟨2, ![n, 64]⟩ (shapeCast ⟨2, ![1, 64]⟩ v6 hc2) hb2) (ix2 p q)
      = v0 (ix2 p q) * v2 (ix2 p (0 : Fin 1)) + v6 (ix2 (0 : Fin 1) q) := by
    rw [addf_apply, mulf_apply, col_bcast, row_bcast, shapeCast_self]
  rw [select_apply, cmpf_apply, mulf_apply, e9, row_bcast]
  rfl

/-- The operations "product of the rows with the weights into zero, each row scaled by the column" are `lin`. -/
theorem lin_ops {n : ℕ} (D : DotDims ⟨2, ![n, 64]⟩ ⟨2, ![64, 64]⟩ ⟨2, ![n, 64]⟩)
    (hr : D.contr.rank = 1) (hs : D.contr.size ⟨0, by omega⟩ = 64)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (A : FVec Ideal ⟨2, ![n, 64]⟩ .f32) (W : FVec Ideal ⟨2, ![64, 64]⟩ .f32) (d : FVec Ideal ⟨2, ![n, 1]⟩ .f32)
    (hlt : FTy.bf16.bits < FTy.f32.bits)
    (hc1 : (⟨2, ![n, 1]⟩ : Shape).ShapeCasts ⟨2, ![n, 1]⟩) (hb1 : (⟨2, ![n, 1]⟩ : Shape).Broadcasts ⟨2, ![n, 64]⟩) :
    mulf (matmul D none (truncf .bf16 A hlt) (truncf .bf16 W hlt) (constant ⟨2, ![n, 64]⟩ .f32 0x00000000#32))
      (broadcastTo ⟨2, ![n, 64]⟩ (shapeCast ⟨2, ![n, 1]⟩ d hc1) hb1)
    = Net.lin A W d := by
  funext j
  obtain ⟨p, q, rfl⟩ : ∃ (p : Fin n) (q : Fin 64), j = ix2 p q := ⟨j 0, j 1, eq_ix2 j⟩
  rw [mulf_apply, col_bcast, Cert.PlainDot.matmul_zero_apply D none hr hs hl0 hl1 hr0 hr1 _ _ p q]
  rfl

/-! ## The two matrix products' index facts -/

theorem dA_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dA_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dA_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dA_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem dB_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dB_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dB_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dB_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The three payloads -/

/-- The first body stores `lin` of its blocks. -/
theorem pay0_eq (x0 : Vec Ideal S10000x64 .f32) (x1 : Vec Ideal S64x64 .f32) (x2 : Vec Ideal S10000x1 .f32) :
    k0_pay1 x0 x1 x2 = Net.lin x0 x1 x2 :=
  lin_ops dot_S10000x64_S64x64_S10000x64_1_0_0_1_n_n rfl rfl dA_l0 dA_l1 dA_r0 dA_r1 x0 x1 x2
    bitsLt_bf16_f32 shapeCasts_S10000x1_S10000x1 broadcasts_S10000x1_S10000x64

/-- The last body stores `post` of its blocks. -/
theorem pay2_eq (v0 : Vec Ideal S10000x64 .f32) (v2 : Vec Ideal S10000x1 .f32) (v6 v12 : Vec Ideal S1x64 .f32) :
    k2_pay1 v0 v2 v6 v12 = Net.post v0 v2 v6 v12 :=
  post_ops v0 v2 v6 v12 shapeCasts_S10000x64_S10000x64 shapeCasts_S10000x1_S10000x1 broadcasts_S10000x1_S10000x64
    shapeCasts_S1x64_S1x64 broadcasts_S1x64_S10000x64

/-- The middle body stores `lin` of the `post` of its first four blocks. -/
theorem pay1_eq (v0 : Vec Ideal S5000x64 .f32) (v2 : Vec Ideal S5000x1 .f32) (v6 v12 : Vec Ideal S1x64 .f32)
    (v18 : Vec Ideal S64x64 .f32) (v21 : Vec Ideal S5000x1 .f32) :
    k1_pay1 v0 v2 v6 v12 v18 v21 = Net.lin (Net.post v0 v2 v6 v12) v18 v21 := by
  rw [← post_ops v0 v2 v6 v12 shapeCasts_S5000x64_S5000x64 shapeCasts_S5000x1_S5000x1 broadcasts_S5000x1_S5000x64
    shapeCasts_S1x64_S1x64 broadcasts_S1x64_S5000x64]
  exact lin_ops dot_S5000x64_S64x64_S5000x64_1_0_0_1_n_n rfl rfl dB_l0 dB_l1 dB_r0 dB_r1 _ v18 v21
    bitsLt_bf16_f32 shapeCasts_S5000x1_S5000x1 broadcasts_S5000x1_S5000x64

end Cert.KernelIdeal.Body

end
-- ==== Proof.KFinal0.lean ====
/-
  The first launch's output array, whole.

  Ten grid points; point `t` reads rows `[10000 t, 10000 (t + 1))` of the features and of the scale column and
  the whole weight matrix, and writes the same rows of the output.  The value a point writes is `lin` of its
  blocks, and `lin` computes a row from that row of the features, that row's scale and the weights alone, so a
  block of `lin` of the whole arrays is `lin` of the blocks.  The ten blocks of rows tile the array, so the array
  ends as `lin` of the arrays the launch found.
-/
import proofs.«120536_j1623497638364_2_alg».proof.Proof.Gen.KernelIdeal.Frame
import proofs.«120536_j1623497638364_2_alg».proof.Proof.KBody

set_option maxRecDepth 16384

noncomputable section

namespace Cert.KernelIdeal.Final0

open Cert.KernelIdeal Cert.KernelIdeal.Gen Idealize.ShloMosaic Idealize.ShloMosaic.TcCoe Idealize.ShloMosaic.ValueIdx
open Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features and the scale column move with the output's rows, the weights
    stay, and the output's block row is below ten. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every block row is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of `lin` of the arrays the launch found. -/
theorem flushed_eq (c : Dev nD) (t : Fin cfg0.N) :
    (dat0 V c).flushed 3 t = ((cfg0.win 3).blk t).view.read (Elt Ideal)
      (Net.lin (V c main_arg0 : S100000x64.Idx → EReal) (V c main_arg2 : S64x64.Idx → EReal) (V c main_v15 : S100000x1.Idx → EReal)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S10000x1) hz]
  rw [Body.pay0_eq]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  have B0 : ∀ k : Fin 64, (iblk0 V c 0 t : S10000x64.Idx → EReal) (ix2 p k)
      = (V c main_arg0 : S100000x64.Idx → EReal) (ix2 (rowOf (((cfg0.win 3).blk t).view.emb (ix2 p q))) k) := fun k => by
    show (V c main_arg0 : S100000x64.Idx → EReal) (((cfg0.win 0).blk t).view.emb (ix2 p k)) = _
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have B1 : ∀ k : Fin 64, (iblk0 V c 1 t : S64x64.Idx → EReal) (ix2 k q)
      = (V c main_arg2 : S64x64.Idx → EReal) (ix2 k (colOf (((cfg0.win 3).blk t).view.emb (ix2 p q)))) := fun k => by
    show (V c main_arg2 : S64x64.Idx → EReal) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have B2 : (iblk0 V c 2 t : S10000x1.Idx → EReal) (ix2 p (0 : Fin 1))
      = (V c main_v15 : S100000x1.Idx → EReal) (ix2 (rowOf (((cfg0.win 3).blk t).view.emb (ix2 p q))) (0 : Fin 1)) := by
    show (V c main_v15 : S100000x1.Idx → EReal) (((cfg0.win 2).blk t).view.emb (ix2 p (0 : Fin 1))) = _
    refine congrArg _ (funext fun a => Fin.ext ?_)
    match a with
    | ⟨0, _⟩ => show win0_2.index t (0 : Fin 2) * 10000 + 1 * p.val = win0_3.index t (0 : Fin 2) * 10000 + 1 * p.val; omega
    | ⟨1, _⟩ => show win0_2.index t (1 : Fin 2) * 1 + 1 * 0 = 0; omega
  show Net.lin (iblk0 V c 0 t) (iblk0 V c 1 t) (iblk0 V c 2 t) (ix2 p q)
    = Net.lin (V c main_arg0 : S100000x64.Idx → EReal) (V c main_arg2 : S64x64.Idx → EReal) (V c main_v15 : S100000x1.Idx → EReal)
        (((cfg0.win 3).blk t).view.emb (ix2 p q))
  unfold Net.lin
  simp only [rowOf_ix2, colOf_ix2, B0, B1, B2]

/-- An index of the output is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16).slice (win0_3.rect t)).set ↔ _
  rw [View.set_slice_whole, Rect.mem_set_unit]
  exact Iff.rfl

/-- Row `r` of the output is in the block of the point whose block row is `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the launch is `lin` of the arrays the launch found. -/
theorem final (c : Dev nD) : (dat0 V c).arrAt 3 cfg0.N
    = Net.lin (V c main_arg0 : S100000x64.Idx → EReal) (V c main_arg2 : S64x64.Idx → EReal) (V c main_v15 : S100000x1.Idx → EReal) :=
  (dat0 V c).arrAt_eq_of_cover 3 _ (fun t _ => flushed_eq V c t) cover

end Cert.KernelIdeal.Final0

end
-- ==== Proof.KFinal1.lean ====
/-
  The middle launch's output array, whole.

  Twenty grid points; point `t` reads rows `[5000 t, 5000 (t + 1))` of the aggregated features and of the scale
  column, and the whole bias row, slope row and weight matrix, and writes the same rows of the output.  The value
  a point writes is `lin` of the `post` of its blocks; both compute a row of the result from that row of the
  features, that row's scale and the whole small operands alone, so a block of the function of the whole arrays
  is the function of the blocks, and the twenty blocks of rows tile the array.
-/
import proofs.«120536_j1623497638364_2_alg».proof.Proof.Gen.KernelIdeal.Frame
import proofs.«120536_j1623497638364_2_alg».proof.Proof.KBody

set_option maxRecDepth 16384

noncomputable section

namespace Cert.KernelIdeal.Final1

open Cert.KernelIdeal Cert.KernelIdeal.Gen Idealize.ShloMosaic Idealize.ShloMosaic.TcCoe Idealize.ShloMosaic.ValueIdx
open Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: features and scale column move with the output's rows, the bias row, the
    slope row and the weights stay. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of `lin` of the `post` of the arrays the launch found. -/
theorem flushed_eq (c : Dev nD) (t : Fin cfg1.N) :
    (dat1 V c).flushed 5 t = ((cfg1.win 5).blk t).view.read (Elt Ideal)
      (Net.lin (Net.post (V c main_v26 : S100000x64.Idx → EReal) (V c main_v15 : S100000x1.Idx → EReal)
          (V c main_v27 : S1x64.Idx → EReal) (V c main_v28 : S1x64.Idx → EReal))
        (V c main_arg5 : S64x64.Idx → EReal) (V c main_v15 : S100000x1.Idx → EReal)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x64) hz]
  rw [Body.pay1_eq]
  obtain ⟨e0, e1, e2, e3, e4, e5, e6, e7, e8, e9, e10, e11⟩ := idx_facts t
  funext j
  obtain ⟨p, q, rfl⟩ : ∃ (p : Fin 5000) (q : Fin 64), j = ix2 p q := ⟨j 0, j 1, eq_ix2 j⟩
  have B0 : ∀ k : Fin 64, (iblk1 V c 0 t : S5000x64.Idx → EReal) (ix2 p k)
      = (V c main_v26 : S100000x64.Idx → EReal) (ix2 (rowOf (((cfg1.win 5).blk t).view.emb (ix2 p q))) k) := fun k => by
    show (V c main_v26 : S100000x64.Idx → EReal) (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have B1 : (iblk1 V c 1 t : S5000x1.Idx → EReal) (ix2 p (0 : Fin 1))
      = (V c main_v15 : S100000x1.Idx → EReal) (ix2 (rowOf (((cfg1.win 5).blk t).view.emb (ix2 p q))) (0 : Fin 1)) := by
    show (V c main_v15 : S100000x1.Idx → EReal) (((cfg1.win 1).blk t).view.emb (ix2 p (0 : Fin 1))) = _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have B2 : ∀ k : Fin 64, (iblk1 V c 2 t : S1x64.Idx → EReal) (ix2 (0 : Fin 1) k)
      = (V c main_v27 : S1x64.Idx → EReal) (ix2 (0 : Fin 1) k) := fun k => by
    show (V c main_v27 : S1x64.Idx → EReal) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have B3 : ∀ k : Fin 64, (iblk1 V c 3 t : S1x64.Idx → EReal) (ix2 (0 : Fin 1) k)
      = (V c main_v28 : S1x64.Idx → EReal) (ix2 (0 : Fin 1) k) := fun k => by
    show (V c main_v28 : S1x64.Idx → EReal) (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have B4 : ∀ k : Fin 64, (iblk1 V c 4 t : S64x64.Idx → EReal) (ix2 k q)
      = (V c main_arg5 : S64x64.Idx → EReal) (ix2 k (colOf (((cfg1.win 5).blk t).view.emb (ix2 p q)))) := fun k => by
    show (V c main_arg5 : S64x64.Idx → EReal) (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = win1_5.index t (1 : Fin 2) * 64 + 1 * q.val; omega
  show Net.lin (Net.post (iblk1 V c 0 t) (iblk1 V c 1 t) (iblk1 V c 2 t) (iblk1 V c 3 t)) (iblk1 V c 4 t) (iblk1 V c 1 t) (ix2 p q)
    = Net.lin (Net.post (V c main_v26 : S100000x64.Idx → EReal) (V c main_v15 : S100000x1.Idx → EReal)
          (V c main_v27 : S1x64.Idx → EReal) (V c main_v28 : S1x64.Idx → EReal))
        (V c main_arg5 : S64x64.Idx → EReal) (V c main_v15 : S100000x1.Idx → EReal) (((cfg1.win 5).blk t).view.emb (ix2 p q))
  unfold Net.lin Net.post
  simp only [rowOf_ix2, colOf_ix2, B0, B1, B2, B3, B4]

/-- An index of the output is in point `t`'s block iff each coordinate is in the block's range. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29).slice (win1_5.rect t)).set ↔ _
  rw [View.set_slice_whole, Rect.mem_set_unit]
  exact Iff.rfl

/-- Row `r` of the output is in the block of the point whose block row is `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the launch is `lin` of the `post` of the arrays the launch found. -/
theorem final (c : Dev nD) : (dat1 V c).arrAt 5 cfg1.N
    = Net.lin (Net.post (V c main_v26 : S100000x64.Idx → EReal) (V c main_v15 : S100000x1.Idx → EReal)
          (V c main_v27 : S1x64.Idx → EReal) (V c main_v28 : S1x64.Idx → EReal))
        (V c main_arg5 : S64x64.Idx → EReal) (V c main_v15 : S100000x1.Idx → EReal) :=
  (dat1 V c).arrAt_eq_of_cover 5 _ (fun t _ => flushed_eq V c t) cover

end Cert.KernelIdeal.Final1

end
-- ==== Proof.KFinal2.lean ====
/-
  The last launch's output array, whole.

  Ten grid points; point `t` reads rows `[10000 t, 10000 (t + 1))` of the aggregated features and of the scale
  column, and the whole bias and slope rows, and writes the same rows of the output.  The value a point writes is
  `post` of its blocks; `post` computes an entry from that entry of the features, its row's scale and its
  column's bias and slope alone, so a block of `post` of the whole arrays is `post` of the blocks, and the ten
  blocks of rows tile the array.
-/
import proofs.«120536_j1623497638364_2_alg».proof.Proof.Gen.KernelIdeal.Frame
import proofs.«120536_j1623497638364_2_alg».proof.Proof.KBody

set_option maxRecDepth 16384

noncomputable section

namespace Cert.KernelIdeal.Final2

open Cert.KernelIdeal Cert.KernelIdeal.Gen Idealize.ShloMosaic Idealize.ShloMosaic.TcCoe Idealize.ShloMosaic.ValueIdx
open Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: features and scale column move with the output's rows, the bias and slope
    rows stay. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

/-- Every block row is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- What point `t` writes back is block `t` of `post` of the arrays the launch found. -/
theorem flushed_eq (c : Dev nD) (t : Fin cfg2.N) :
    (dat2 V c).flushed 4 t = ((cfg2.win 4).blk t).view.read (Elt Ideal)
      (Net.post (V c main_v39 : S100000x64.Idx → EReal) (V c main_v15 : S100000x1.Idx → EReal)
        (V c main_v40 : S1x64.Idx → EReal) (V c main_v41 : S1x64.Idx → EReal)) := by
  show (cfg2.win 4).cut (grid2.coords t) ((dat2 V c).after 4 t) = _
  rw [after2_4]
  unfold out2_4
  rw [View.canon_unit_zero hz]
  simp only [View.ld_unit_zero (S := S10000x64) hz, View.ld_unit_zero (S := S10000x1) hz, View.ld_unit_zero (S := S1x64) hz]
  rw [Body.pay2_eq]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  have B0 : (iblk2 V c 0 t : S10000x64.Idx → EReal) (ix2 p q)
      = (V c main_v39 : S100000x64.Idx → EReal) (((cfg2.win 4).blk t).view.emb (ix2 p q)) := by
    show (V c main_v39 : S100000x64.Idx → EReal) (((cfg2.win 0).blk t).view.emb (ix2 p q)) = _
    refine congrArg _ (funext fun a => Fin.ext ?_)
    match a with
    | ⟨0, _⟩ => show win2_0.index t (0 : Fin 2) * 10000 + 1 * p.val = win2_4.index t (0 : Fin 2) * 10000 + 1 * p.val; omega
    | ⟨1, _⟩ => show win2_0.index t (1 : Fin 2) * 64 + 1 * q.val = win2_4.index t (1 : Fin 2) * 64 + 1 * q.val; omega
  have B1 : (iblk2 V c 1 t : S10000x1.Idx → EReal) (ix2 p (0 : Fin 1))
      = (V c main_v15 : S100000x1.Idx → EReal) (ix2 (rowOf (((cfg2.win 4).blk t).view.emb (ix2 p q))) (0 : Fin 1)) := by
    show (V c main_v15 : S100000x1.Idx → EReal) (((cfg2.win 1).blk t).view.emb (ix2 p (0 : Fin 1))) = _
    refine congrArg _ (funext fun a => Fin.ext ?_)
    match a with
    | ⟨0, _⟩ => show win2_1.index t (0 : Fin 2) * 10000 + 1 * p.val = win2_4.index t (0 : Fin 2) * 10000 + 1 * p.val; omega
    | ⟨1, _⟩ => show win2_1.index t (1 : Fin 2) * 1 + 1 * 0 = 0; omega
  have B2 : (iblk2 V c 2 t : S1x64.Idx → EReal) (ix2 (0 : Fin 1) q)
      = (V c main_v40 : S1x64.Idx → EReal) (ix2 (0 : Fin 1) (colOf (((cfg2.win 4).blk t).view.emb (ix2 p q)))) := by
    show (V c main_v40 : S1x64.Idx → EReal) (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_4.index t (1 : Fin 2) * 64 + 1 * q.val; omega
  have B3 : (iblk2 V c 3 t : S1x64.Idx → EReal) (ix2 (0 : Fin 1) q)
      = (V c main_v41 : S1x64.Idx → EReal) (ix2 (0 : Fin 1) (colOf (((cfg2.win 4).blk t).view.emb (ix2 p q)))) := by
    show (V c main_v41 : S1x64.Idx → EReal) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  show Net.post (iblk2 V c 0 t) (iblk2 V c 1 t) (iblk2 V c 2 t) (iblk2 V c 3 t) (ix2 p q)
    = Net.post (V c main_v39 : S100000x64.Idx → EReal) (V c main_v15 : S100000x1.Idx → EReal)
        (V c main_v40 : S1x64.Idx → EReal) (V c main_v41 : S1x64.Idx → EReal) (((cfg2.win 4).blk t).view.emb (ix2 p q))
  unfold Net.post
  simp only [rowOf_ix2, colOf_ix2, B0, B1, B2, B3]

/-- An index of the output is in point `t`'s block iff each coordinate is in the block's range. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v42).slice (win2_4.rect t)).set ↔ _
  rw [View.set_slice_whole, Rect.mem_set_unit]
  exact Iff.rfl

/-- Row `r` of the output is in the block of the point whose block row is `r / 10000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- The output array after the launch is `post` of the arrays the launch found. -/
theorem final (c : Dev nD) : (dat2 V c).arrAt 4 cfg2.N
    = Net.post (V c main_v39 : S100000x64.Idx → EReal) (V c main_v15 : S100000x1.Idx → EReal)
        (V c main_v40 : S1x64.Idx → EReal) (V c main_v41 : S1x64.Idx → EReal) :=
  (dat2 V c).arrAt_eq_of_cover 4 _ (fun t _ => flushed_eq V c t) cover

end Cert.KernelIdeal.Final2

end
-- ==== Proof.LibRowsByIndex.lean ====
/-
  Rows taken and rows added by an array of row numbers, read at an index.

  A gather that takes whole rows of an `N × C` matrix (or entries of an `N` vector) by an `E × 1` array of row
  numbers reads, at row `e`, the row whose number is entry `e` of the array, read as a signed integer and
  clamped into `[0, N − 1]`.  A scatter that adds the rows of an `E × C` matrix into an `N × C` matrix by
  such an array sends row `e` to the row whose number is entry `e`, read signed and NOT clamped: a row whose
  number is out of range is dropped.  So an update that lands on row `p` has a row number that is `p` as an
  integer, and in particular is not negative.

  At exact values the scatter-add is, at each entry, the entry plus the sum of the updates that land
  there.  A factor that is finite and not negative may be moved across that sum; this is what lets a per-row
  scale be applied either to every update that lands on the row or once to the row's sum.
-/
import Idealize.ShloMosaic.Lib.ValueIdx
import Idealize.ShloMosaic.PureOps.Ideal.Laws

noncomputable section

open scoped BigOperators

namespace Cert.RowsByIndex

open Idealize.ShloMosaic Idealize.ShloMosaic.ValueIdx

variable {α : Type}

/-- The row a start index names in a gather: the word read as a signed integer, clamped into `[0, N − 1]`. -/
def clampRow (N : ℕ) (hN : 0 < N) {w : ℕ} (b : BitVec w) : Fin N := ⟨min b.toInt.toNat (N - 1), by omega⟩

/-- A word whose signed reading is the row number `p` names row `p`. -/
theorem clampRow_of_toInt {N : ℕ} (hN : 0 < N) {w : ℕ} (b : BitVec w) (p : Fin N) (h : b.toInt = (p.val : ℤ)) :
    clampRow N hN b = p := by
  refine Fin.ext ?_
  show min b.toInt.toNat (N - 1) = p.val
  have := p.isLt
  rw [h]; simp only [Int.toNat_natCast]; omega

/-- A row number that is not negative is left alone by the wrap-around of negative row numbers
    (`select (x < 0) (x + N) x`). -/
theorem keep_nonneg (x y : BitVec 32) (h : 0 ≤ x.toInt) : Scalar.select (IntOp.cmpi .slt x 0#32) y x = x := by
  unfold Scalar.select IntOp.cmpi
  have hs : x.slt 0#32 = false := by
    rw [BitVec.slt_eq_decide]
    simpa using h
  simp [hs]

/-! ## Whole rows of a matrix taken by row numbers -/

/-- The dimension numbers of `x[idx]` for a matrix `x : [N, C]` and row numbers `idx : [E, 1]`. -/
abbrev rowsDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the rows taken is entry `c` of the row that entry `e` of the row numbers names. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e (0 : Fin 1)))) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap from (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## Entries of a vector taken by row numbers -/

/-- The dimension numbers of `x[idx]` for a vector `x : [N]` and row numbers `idx : [E, 1]`. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the entries taken is the vector's entry that entry `e` of the row numbers names. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e (0 : Fin 1))))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows added into a matrix by row numbers -/

/-- The dimension numbers of `x.at[idx].add(u)` for `x : [N, C]`, row numbers `idx : [E, 1]`, rows `u : [E, C]`. -/
abbrev addRowsDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window of update `(e, c)` starts, along the rows, at the signed reading of entry `e` of the row numbers. -/
theorem addRows_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e c) ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Along the rows an update has no window coordinate: the row axis is inserted. -/
theorem addRows_window {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 0 = 0 := by
  unfold ScatterDims.window
  rw [dif_neg (show ¬ (0 : Fin 2) ∈ (addRowsDims N E C wf).sKept from
    (by decide : (0 : Fin 2) ∉ (List.finRange 2).filter (· ∉ ([0] : List (Fin 2)))))]

/-- An update that lands on row `i 0` has, as its row number read signed, exactly `i 0`. -/
theorem addRows_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e (0 : Fin 1))).toInt = ((i 0).val : ℤ) := by
  unfold ScatterDims.resultIdx? at h
  split at h
  · rename_i hall
    have h0 := hall 0
    have hv : ((addRowsDims N E C wf).start (ix2 e c) idx 0 + ((addRowsDims N E C wf).window (ix2 e c) 0 : ℤ)).toNat = (i 0).val :=
      congrArg Fin.val (congrFun (Option.some.inj h) 0)
    rw [addRows_start, addRows_window] at hv h0
    simp only [Nat.cast_zero, add_zero] at hv h0
    omega
  · exact absurd h (by simp)

/-! ## A finite, non-negative factor across a sum of extended reals -/

/-- A factor that is not negative and not `+∞` distributes over a finite sum of extended reals. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- Scatter-adding into zero and then scaling an entry by a finite non-negative factor is scatter-adding, into
    zero, updates each of which carries that factor whenever it lands on the entry. -/
theorem scatterAdd_mul_right {s si su : Shape} {φ : FTy} (d : ScatterDims s si su) {w : ℕ} (idx : IVec si w)
    (u v : su.Idx → EReal) (z z' : s.Idx → EReal) (i : s.Idx) (hz : z i = 0) (hz' : z' i = 0)
    {D : EReal} (h0 : 0 ≤ D) (ht : D ≠ ⊤)
    (huv : ∀ j, d.resultIdx? j idx = some i → v j = u j * D) :
    Host.scatterAdd (F := Ideal) (φ := φ) d z idx u i * D = Host.scatterAdd (F := Ideal) (φ := φ) d z' idx v i := by
  show Ideal.hostScatterAdd d z idx u i * D = Ideal.hostScatterAdd d z' idx v i
  unfold Ideal.hostScatterAdd
  rw [hz, hz', zero_add, zero_add, sum_mul_of_nonneg_ne_top _ _ h0 ht]
  exact Finset.sum_congr rfl fun j hj => (huv j (Finset.mem_filter.mp hj).2).symm

/-- Scatter-adding, into equal entries, updates that agree wherever they land on the entry gives equal entries. -/
theorem scatterAdd_congr {s si su : Shape} {φ : FTy} (d : ScatterDims s si su) {w : ℕ} (idx : IVec si w)
    (u v : su.Idx → EReal) (z z' : s.Idx → EReal) (i : s.Idx) (hz : z i = z' i)
    (huv : ∀ j, d.resultIdx? j idx = some i → u j = v j) :
    Host.scatterAdd (F := Ideal) (φ := φ) d z idx u i = Host.scatterAdd (F := Ideal) (φ := φ) d z' idx v i := by
  show Ideal.hostScatterAdd d z idx u i = Ideal.hostScatterAdd d z' idx v i
  unfold Ideal.hostScatterAdd
  rw [hz]
  exact congrArg _ (Finset.sum_congr rfl fun j hj => huv j (Finset.mem_filter.mp hj).2)

/-! ## The inverse square root of a degree, guarded at zero, is finite and not negative -/

/-- `where(x > 0, rsqrt x, 0)` is a non-negative real, whatever extended real `x` is. -/
theorem guarded_rsqrt_finite (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  unfold Scalar.select Ideal.cmp
  by_cases hx : (0 : EReal) < x
  · simp only [hx, decide_true, BitVec.ofBool_true, if_true]
    induction x using EReal.rec with
    | bot => exact absurd hx (by simp)
    | top =>
      rw [show Ideal.rsqrt (⊤ : EReal) = 0 from rfl]
      exact ⟨le_refl _, EReal.zero_ne_top⟩
    | coe r =>
      have hr : 0 < r := by exact_mod_cast hx
      rw [show Ideal.rsqrt (r : EReal) = if r < 0 then ⊥ else if r = 0 then ⊤ else (((Real.sqrt r)⁻¹ : ℝ) : EReal) from rfl,
        if_neg (not_lt.mpr hr.le), if_neg hr.ne']
      exact ⟨by exact_mod_cast inv_nonneg.mpr (Real.sqrt_nonneg r), EReal.coe_ne_top _⟩
  · simp only [hx, decide_false, BitVec.ofBool_false]
    simp

end Cert.RowsByIndex

end
-- ==== Proof.RCore.lean ====
/-
  The reference's result is the kernel program's function of the arguments.

  Both programs compute, per layer, for node `p` and feature `c`,
      sum over the edges `e` that land on `p` of  h (src e, c) · d (src e) · d (p),
  where `d` is the inverse root of the node's degree (zero where the degree is zero) and `src e` is the edge's
  source, read signed, wrapped when negative and clamped into the node range.  The reference multiplies each
  gathered row by `d (src e) · d (dst e)` before adding the rows up; the kernel program scales row `r` of `h` by
  `d r` before the gather and scales row `p` of the sum by `d p` after it.  An edge lands on `p` only when its
  destination, read signed, is `p` — so it is not negative, the wrap-around leaves it alone, and the reference's
  gather of `d` at it reads `d p`.  The factor `d p` is a real number that is not negative, so it may be moved
  across the sum of extended reals; that and associativity of the product join the two sides.  Around the sums
  both programs apply the same pointwise operations.
-/
import proofs.«120536_j1623497638364_2_alg».proof.Proof.RefRead
import proofs.«120536_j1623497638364_2_alg».proof.Proof.LibRowsByIndex
import proofs.«120536_j1623497638364_2_alg».proof.Proof.Net

noncomputable section

open scoped BigOperators

namespace Cert.ReferenceIdeal.RefValue

open Cert.ReferenceIdeal Cert.ReferenceIdeal.Read Idealize.ShloMosaic Idealize.ShloMosaic.ValueIdx Cert.Net Cert.RowsByIndex

variable (x1 : (⟨S2x1200000, .i32⟩ : BufTy).Contents (Elt Ideal))

/-! ## The three index records are the row gathers and the row scatter -/

theorem gd_eq : gather_S100000x64_S1300000x1_S1300000x64_1_0_n_n_0_1_164
    = rowsDims 100000 1300000 64 gather_S100000x64_S1300000x1_S1300000x64_1_0_n_n_0_1_164.wf := rfl
theorem g1_eq : gather_S100000_S1300000x1_S1300000_n_0_n_n_0_1_1
    = entriesDims 100000 1300000 gather_S100000_S1300000x1_S1300000_n_0_n_n_0_1_1.wf := rfl
theorem sd_eq : scatter_S100000x64_S1300000x1_S1300000x64_1_0_0_1
    = addRowsDims 100000 1300000 64 scatter_S100000x64_S1300000x1_S1300000x64_1_0_0_1.wf := rfl

/-- Rows of a node matrix taken by row numbers, at `(e, c)`. -/
theorem gatherR (H : S100000x64.Idx → EReal) (is : IVec S1300000x1 32) (e : Fin 1300000) (c : Fin 64) :
    Host.gather gather_S100000x64_S1300000x1_S1300000x64_1_0_n_n_0_1_164 H is (ix2 e c)
      = H (ix2 (clampRow 100000 (by decide) (is (ix2 e (0 : Fin 1)))) c) := by
  rw [gd_eq]; exact gather_rows_apply _ _ H is e c

/-- Entries of a node vector taken by row numbers, at `e`. -/
theorem gather1R (D : S100000.Idx → EReal) (is : IVec S1300000x1 32) (e : Fin 1300000) :
    Host.gather gather_S100000_S1300000x1_S1300000_n_0_n_n_0_1_1 D is (ix1 e)
      = D (ix1 (clampRow 100000 (by decide) (is (ix2 e (0 : Fin 1))))) := by
  rw [g1_eq]; exact gather_entries_apply _ _ D is e

/-! ## Zeros -/

theorem z11 (i : S100000.Idx) : val_main_v11 (F := Ideal) i = 0 := by
  rw [val_main_v11_apply, val_main_cst_1_apply]; exact Ideal.ofBits_zero_f32
theorem zc1 (i : S100000.Idx) : val_main_call0_v1 (F := Ideal) i = 0 := by
  rw [val_main_call0_v1_apply, val_main_call0_v0_apply, val_main_cst_2_apply]; exact Ideal.ofBits_zero_f32
theorem z41 (i : S100000x64.Idx) : val_main_v41 (F := Ideal) i = 0 := by
  rw [val_main_v41_apply, val_main_cst_8_apply]; exact Ideal.ofBits_zero_f32
theorem z64 (i : S100000x64.Idx) : val_main_v64 (F := Ideal) i = 0 := by
  rw [val_main_v64_apply, val_main_cst_12_apply]; exact Ideal.ofBits_zero_f32

/-- The inverse root of the degree, guarded at zero, is a real number that is not negative. -/
theorem dinv_fin (i : S100000.Idx) : 0 ≤ val_main_v14 (F := Ideal) x1 i ∧ val_main_v14 (F := Ideal) x1 i ≠ ⊤ := by
  rw [val_main_v14_apply, val_main_v12_apply, val_main_v13_apply, z11 i, zc1 i]
  generalize val_main_v10 (F := Ideal) x1 i = x
  rw [Ideal.cmpf_def, Ideal.hostUnary_rsqrt_def]
  exact guarded_rsqrt_finite x 0 0 rfl rfl

/-! ## The arrays of row numbers, read at an edge -/

theorem col_idx (e : Fin 1300000) : (fun a => match a with | ⟨0, _⟩ => ⟨((ix2 e (0 : Fin 1) : S1300000x1.Idx) 0).val, ((ix2 e (0 : Fin 1) : S1300000x1.Idx) 0).isLt⟩ : S1300000.Idx) = ix1 e :=
  funext fun a => by match a with | ⟨0, _⟩ => rfl

/-- The destinations as a column, at edge `e`. -/
theorem dstcol (e : Fin 1300000) : val_main_v42 (F := Ideal) x1 (ix2 e (0 : Fin 1)) = val_main_v6 (F := Ideal) x1 (ix1 e) := by
  rw [val_main_v42_apply]; exact congrArg _ (col_idx e)
theorem dstcol' (e : Fin 1300000) : val_main_v65 (F := Ideal) x1 (ix2 e (0 : Fin 1)) = val_main_v6 (F := Ideal) x1 (ix1 e) := by
  rw [val_main_v65_apply]; exact congrArg _ (col_idx e)
/-- The wrapped sources as a column, at edge `e` (the three gathers of rows and the gather of the scale use the same
    wrapped sources). -/
theorem srccol (e : Fin 1300000) : val_main_v36 (F := Ideal) x1 (ix2 e (0 : Fin 1)) = val_main_v19 (F := Ideal) x1 (ix1 e) := by
  rw [val_main_v36_apply]; exact congrArg _ (col_idx e)
theorem srccol' (e : Fin 1300000) : val_main_v59 (F := Ideal) x1 (ix2 e (0 : Fin 1)) = val_main_v19 (F := Ideal) x1 (ix1 e) := by
  rw [val_main_v59_apply]; exact congrArg _ (col_idx e)
theorem srccol0 (e : Fin 1300000) : val_main_v20 (F := Ideal) x1 (ix2 e (0 : Fin 1)) = val_main_v19 (F := Ideal) x1 (ix1 e) := by
  rw [val_main_v20_apply]; exact congrArg _ (col_idx e)
/-- The wrapped destinations as a column, at an edge whose destination is not negative: the destination itself. -/
theorem dstNcol (e : Fin 1300000) (h : 0 ≤ (val_main_v6 (F := Ideal) x1 (ix1 e)).toInt) :
    val_main_v27 (F := Ideal) x1 (ix2 e (0 : Fin 1)) = val_main_v6 (F := Ideal) x1 (ix1 e) := by
  rw [val_main_v27_apply]
  refine (congrArg _ (col_idx e)).trans ?_
  rw [val_main_v26_apply, val_main_v23_apply, val_main_v22_apply, val_main_c_4_apply]
  exact keep_nonneg _ _ h

/-- The source node of edge `e`. -/
def srcRow (e : Fin 1300000) : Fin 100000 := clampRow 100000 (by decide) (val_main_v19 (F := Ideal) x1 (ix1 e))

/-- The reference's edge weight at an edge that lands on node `p`: `d (src e) · d p`. -/
theorem norm_eq (e : Fin 1300000) (p : Fin 100000) (hl : (val_main_v6 (F := Ideal) x1 (ix1 e)).toInt = (p.val : ℤ)) :
    val_main_v29 (F := Ideal) x1 (ix1 e)
      = val_main_v14 (F := Ideal) x1 (ix1 (srcRow x1 e)) * val_main_v14 (F := Ideal) x1 (ix1 p) := by
  rw [val_main_v29_apply]
  show val_main_v21 (F := Ideal) x1 (ix1 e) * val_main_v28 (F := Ideal) x1 (ix1 e) = _
  unfold val_main_v21 val_main_v28
  rw [gather1R, gather1R, srccol0, dstNcol x1 e (by rw [hl]; exact Int.natCast_nonneg _),
    clampRow_of_toInt (by decide) _ p hl]
  rfl

/-! ## One aggregation -/

/-- Scatter-adding the gathered rows of `T` (row `r` of `R` scaled by `d r`) and scaling row `p` of the sum by `d p`
    is scatter-adding the updates `v`, when `v (e, c) = R (src e, c) · (the reference's edge weight at e)`. -/
theorem core (T R : S100000x64.Idx → EReal)
    (hTR : ∀ (r : Fin 100000) (c : Fin 64), T (ix2 r c) = R (ix2 r c) * val_main_v14 (F := Ideal) x1 (ix1 r))
    (z : S100000x64.Idx → EReal) (hz : ∀ i, z i = 0)
    (iD iS : IVec S1300000x1 32)
    (hiD : ∀ e : Fin 1300000, iD (ix2 e (0 : Fin 1)) = val_main_v6 (F := Ideal) x1 (ix1 e))
    (hiS : ∀ e : Fin 1300000, iS (ix2 e (0 : Fin 1)) = val_main_v19 (F := Ideal) x1 (ix1 e))
    (v : S1300000x64.Idx → EReal)
    (hv : ∀ (e : Fin 1300000) (c : Fin 64), v (ix2 e c) = R (ix2 (srcRow x1 e) c) * val_main_v29 (F := Ideal) x1 (ix1 e))
    (p : Fin 100000) (q : Fin 64) :
    Host.scatterAdd (F := Ideal) (φ := .f32) scatter_S100000x64_S1300000x1_S1300000x64_1_0_0_1 z iD
        (Host.gather gather_S100000x64_S1300000x1_S1300000x64_1_0_n_n_0_1_164 T iS) (ix2 p q)
      * val_main_v14 (F := Ideal) x1 (ix1 p)
    = Host.scatterAdd (F := Ideal) (φ := .f32) scatter_S100000x64_S1300000x1_S1300000x64_1_0_0_1 z iD v (ix2 p q) := by
  refine scatterAdd_mul_right (φ := .f32) _ iD _ v z z (ix2 p q) (hz _) (hz _) (dinv_fin x1 _).1 (dinv_fin x1 _).2 ?_
  intro j hj
  obtain ⟨e, c, rfl⟩ : ∃ (e : Fin 1300000) (c : Fin 64), j = ix2 e c := ⟨j 0, j 1, eq_ix2 j⟩
  rw [sd_eq] at hj
  have hl := addRows_lands _ iD e c (ix2 p q) hj
  rw [hiD e] at hl
  rw [hv e c, gatherR, hiS e, norm_eq x1 e p hl]
  show R (ix2 (srcRow x1 e) c) * (val_main_v14 (F := Ideal) x1 (ix1 (srcRow x1 e)) * val_main_v14 (F := Ideal) x1 (ix1 p))
    = T (ix2 (srcRow x1 e) c) * val_main_v14 (F := Ideal) x1 (ix1 p)
  rw [hTR, mul_assoc]

end Cert.ReferenceIdeal.RefValue

end
-- ==== Proof.RNet.lean ====
/-
  The whole network: two aggregations, each between the same pointwise stages.

  With `d` the inverse-root degree as a column, the kernel program computes
      post (agg (lin (post (agg (lin x W₁ d)) d b₁ a₁) W₂ d)) d b₂ a₂,
  where `agg` gathers rows by the wrapped sources and scatter-adds them by the destinations into zero.  The
  reference computes the same with the scale `d (src e) · d (dst e)` applied to each gathered row instead.  One
  aggregation followed by the row scale is the reference's weighted aggregation (`core`); the bias, the leaky unit
  and the matrix products are the same operations on both sides, read entry by entry.
-/
import proofs.«120536_j1623497638364_2_alg».proof.Proof.RCore

noncomputable section

open scoped BigOperators

namespace Cert.ReferenceIdeal.RefValue

open Cert.ReferenceIdeal Cert.ReferenceIdeal.Read Idealize.ShloMosaic Idealize.ShloMosaic.ValueIdx Cert.Net Cert.RowsByIndex

/-- The shape of a column with one entry per node. -/
abbrev SCol : Shape := ⟨2, ![100000, 1]⟩

/-- Two columns of row numbers that agree at every edge are one array. -/
theorem col_ext (f g : IVec S1300000x1 32) (h : ∀ e : Fin 1300000, f (ix2 e (0 : Fin 1)) = g (ix2 e (0 : Fin 1))) : f = g := by
  funext j
  obtain ⟨e, u, rfl⟩ : ∃ (e : Fin 1300000) (u : Fin 1), j = ix2 e u := ⟨j 0, j 1, eq_ix2 j⟩
  obtain rfl : u = 0 := Subsingleton.elim _ _
  exact h e

/-- A row `[64] → [1, 64] → [100000, 64]` read at `(p, q)` is the vector at `q` (the four bias and slope rows). -/
theorem i45 (p : Fin 100000) (q : Fin 64) : idx_main_v44 (idx_main_v45 (ix2 p q)) = ix1 q :=
  funext fun a => by match a with | ⟨0, _⟩ => rfl
theorem i50 (p : Fin 100000) (q : Fin 64) : idx_main_v49 (idx_main_v50 (ix2 p q)) = ix1 q :=
  funext fun a => by match a with | ⟨0, _⟩ => rfl
theorem i68 (p : Fin 100000) (q : Fin 64) : idx_main_v67 (idx_main_v68 (ix2 p q)) = ix1 q :=
  funext fun a => by match a with | ⟨0, _⟩ => rfl
theorem i73 (p : Fin 100000) (q : Fin 64) : idx_main_v72 (idx_main_v73 (ix2 p q)) = ix1 q :=
  funext fun a => by match a with | ⟨0, _⟩ => rfl
/-- The edge weights `[E] → [E, 1] → [E, 64]` read at `(e, c)` are the weight of edge `e`. -/
theorem i39 (e : Fin 1300000) (c : Fin 64) : idx_main_v38 (idx_main_v39 (ix2 e c)) = ix1 e :=
  funext fun a => by match a with | ⟨0, _⟩ => rfl
theorem i62 (e : Fin 1300000) (c : Fin 64) : idx_main_v61 (idx_main_v62 (ix2 e c)) = ix1 e :=
  funext fun a => by match a with | ⟨0, _⟩ => rfl

/-- The leaky unit spelt with the float operations at exact values. -/
theorem act_ops (a s b : EReal) :
    Net.act a (s + b) = Scalar.select (FloatOps.cmpf (F := Ideal) (φ := .f32) .oge (FloatOps.addf (F := Ideal) (φ := .f32) s b) (FloatOps.ofBits (F := Ideal) .f32 0x00000000#32))
      (FloatOps.addf (F := Ideal) (φ := .f32) s b) (FloatOps.mulf (F := Ideal) (φ := .f32) a (FloatOps.addf (F := Ideal) (φ := .f32) s b)) := rfl

/-- `lin` at `(r, c)`. -/
theorem lin_at (X : S100000x64.Idx → EReal) (W : S64x64.Idx → EReal) (d : SCol.Idx → EReal) (r : Fin 100000) (c : Fin 64) :
    Net.lin X W d (ix2 r c) = (∑ k : Fin 64, X (ix2 r k) * W (ix2 k c)) * d (ix2 r (0 : Fin 1)) := rfl

/-- `post` at `(p, q)` with the bias and slope rows read off their vectors. -/
theorem post_at (A : S100000x64.Idx → EReal) (d : SCol.Idx → EReal) (b a : S1x64.Idx → EReal)
    (bv av : S64.Idx → EReal) (hb : ∀ q : Fin 64, b (ix2 (0 : Fin 1) q) = bv (ix1 q))
    (ha : ∀ q : Fin 64, a (ix2 (0 : Fin 1) q) = av (ix1 q)) (p : Fin 100000) (q : Fin 64) :
    Net.post A d b a (ix2 p q) = Net.act (av (ix1 q)) (A (ix2 p q) * d (ix2 p (0 : Fin 1)) + bv (ix1 q)) := by
  show Net.act (a (ix2 (0 : Fin 1) q)) (A (ix2 p q) * d (ix2 p (0 : Fin 1)) + b (ix2 (0 : Fin 1) q)) = _
  rw [hb, ha]

variable (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 x4 : (⟨S64, .f32⟩ : BufTy).Contents (Elt Ideal)) (x5 : (⟨S64x64, .f32⟩ : BufTy).Contents (Elt Ideal)) (x6 x7 : (⟨S64, .f32⟩ : BufTy).Contents (Elt Ideal))
variable (d : SCol.Idx → EReal) (hd : ∀ p : Fin 100000, d (ix2 p (0 : Fin 1)) = val_main_v14 (F := Ideal) x1 (ix1 p))

/-! ## The first layer -/

include hd in
theorem hTR1 (r : Fin 100000) (c : Fin 64) : Net.lin x0 x2 d (ix2 r c)
    = val_main_v30 (F := Ideal) x0 x2 (ix2 r c) * val_main_v14 (F := Ideal) x1 (ix1 r) := by
  rw [val_main_v30_apply, ← hd, lin_at]
  have el : ∀ k : Fin 64, lidx_main_v30 (ix2 r c) k = ix2 r k :=
    fun k => funext fun a => by match a with | ⟨0, _⟩ => rfl | ⟨1, _⟩ => rfl
  have er : ∀ k : Fin 64, ridx_main_v30 (ix2 r c) k = ix2 k c :=
    fun k => funext fun a => by match a with | ⟨0, _⟩ => rfl | ⟨1, _⟩ => rfl
  simp only [el, er]

theorem hv1 (e : Fin 1300000) (c : Fin 64) : val_main_v40 (F := Ideal) x0 x1 x2 (ix2 e c)
    = val_main_v30 (F := Ideal) x0 x2 (ix2 (srcRow x1 e) c) * val_main_v29 (F := Ideal) x1 (ix1 e) := by
  rw [val_main_v40_apply]
  show val_main_v37 (F := Ideal) x0 x1 x2 (ix2 e c) * val_main_v39 (F := Ideal) x1 (ix2 e c) = _
  unfold val_main_v37 srcRow
  rw [gatherR, srccol, val_main_v39_apply, val_main_v38_apply, i39]

include hd in
/-- One aggregation of the kernel program, scaled, is the reference's first weighted aggregation. -/
theorem L1 (z1 : S100000x64.Idx → EReal) (hz1 : ∀ i, z1 i = 0) (iS1 : IVec S1300000x1 32)
    (hiS1 : ∀ e : Fin 1300000, iS1 (ix2 e (0 : Fin 1)) = val_main_v19 (F := Ideal) x1 (ix1 e))
    (p : Fin 100000) (q : Fin 64) :
    Host.scatterAdd (F := Ideal) (φ := .f32) scatter_S100000x64_S1300000x1_S1300000x64_1_0_0_1 z1 (val_main_v42 (F := Ideal) x1)
        (Host.gather gather_S100000x64_S1300000x1_S1300000x64_1_0_n_n_0_1_164 (Net.lin x0 x2 d) iS1) (ix2 p q) * d (ix2 p (0 : Fin 1))
      = val_main_v43 (F := Ideal) x0 x1 x2 (ix2 p q) := by
  rw [hd]
  refine (core x1 (Net.lin x0 x2 d) (val_main_v30 (F := Ideal) x0 x2) (hTR1 x0 x1 x2 d hd) z1 hz1
    (val_main_v42 (F := Ideal) x1) iS1 (dstcol x1) hiS1 (val_main_v40 (F := Ideal) x0 x1 x2) (hv1 x0 x1 x2) p q).trans ?_
  unfold val_main_v43
  exact scatterAdd_congr (φ := .f32) scatter_S100000x64_S1300000x1_S1300000x64_1_0_0_1 (val_main_v42 (F := Ideal) x1) (val_main_v40 (F := Ideal) x0 x1 x2)
    (val_main_v40 (F := Ideal) x0 x1 x2) z1 (val_main_v41 (F := Ideal)) (ix2 p q) ((hz1 _).trans (z41 _).symm) (fun _ _ => rfl)

include hd in
/-- The pointwise stage after the first aggregation is the reference's. -/
theorem P1 (b1 a1 : S1x64.Idx → EReal)
    (hb1 : ∀ q : Fin 64, b1 (ix2 (0 : Fin 1) q) = x3 (ix1 q)) (ha1 : ∀ q : Fin 64, a1 (ix2 (0 : Fin 1) q) = x4 (ix1 q))
    (z1 : S100000x64.Idx → EReal) (hz1 : ∀ i, z1 i = 0) (iS1 : IVec S1300000x1 32)
    (hiS1 : ∀ e : Fin 1300000, iS1 (ix2 e (0 : Fin 1)) = val_main_v19 (F := Ideal) x1 (ix1 e)) :
    Net.post (Host.scatterAdd (F := Ideal) (φ := .f32) scatter_S100000x64_S1300000x1_S1300000x64_1_0_0_1 z1 (val_main_v42 (F := Ideal) x1)
        (Host.gather gather_S100000x64_S1300000x1_S1300000x64_1_0_n_n_0_1_164 (Net.lin x0 x2 d) iS1)) d b1 a1
      = val_main_v52 (F := Ideal) x0 x1 x2 x3 x4 := by
  funext i
  obtain ⟨p, q, rfl⟩ : ∃ (p : Fin 100000) (q : Fin 64), i = ix2 p q := ⟨i 0, i 1, eq_ix2 i⟩
  rw [post_at _ d b1 a1 x3 x4 hb1 ha1 p q, L1 x0 x1 x2 d hd z1 hz1 iS1 hiS1 p q, val_main_v52_apply, val_main_v48_apply,
    val_main_v51_apply, val_main_v46_apply, val_main_v47_apply, val_main_cst_9_apply, val_main_v50_apply,
    val_main_v49_apply, val_main_v45_apply, val_main_v44_apply, i45, i50]
  generalize val_main_v43 (F := Ideal) x0 x1 x2 (ix2 p q) = s
  exact act_ops _ _ _

/-! ## The second layer -/

include hd in
theorem hTR2 (r : Fin 100000) (c : Fin 64) : Net.lin (val_main_v52 (F := Ideal) x0 x1 x2 x3 x4) x5 d (ix2 r c)
    = val_main_v53 (F := Ideal) x0 x1 x2 x3 x4 x5 (ix2 r c) * val_main_v14 (F := Ideal) x1 (ix1 r) := by
  rw [val_main_v53_apply, ← hd, lin_at]
  have el : ∀ k : Fin 64, lidx_main_v53 (ix2 r c) k = ix2 r k :=
    fun k => funext fun a => by match a with | ⟨0, _⟩ => rfl | ⟨1, _⟩ => rfl
  have er : ∀ k : Fin 64, ridx_main_v53 (ix2 r c) k = ix2 k c :=
    fun k => funext fun a => by match a with | ⟨0, _⟩ => rfl | ⟨1, _⟩ => rfl
  simp only [el, er]

theorem hv2 (e : Fin 1300000) (c : Fin 64) : val_main_v63 (F := Ideal) x0 x1 x2 x3 x4 x5 (ix2 e c)
    = val_main_v53 (F := Ideal) x0 x1 x2 x3 x4 x5 (ix2 (srcRow x1 e) c) * val_main_v29 (F := Ideal) x1 (ix1 e) := by
  rw [val_main_v63_apply]
  show val_main_v60 (F := Ideal) x0 x1 x2 x3 x4 x5 (ix2 e c) * val_main_v62 (F := Ideal) x1 (ix2 e c) = _
  unfold val_main_v60 srcRow
  rw [gatherR, srccol', val_main_v62_apply, val_main_v61_apply, i62]

include hd in
/-- The second aggregation of the kernel program, scaled, is the reference's second weighted aggregation. -/
theorem L2 (z2 : S100000x64.Idx → EReal) (hz2 : ∀ i, z2 i = 0) (iS2 : IVec S1300000x1 32)
    (hiS2 : ∀ e : Fin 1300000, iS2 (ix2 e (0 : Fin 1)) = val_main_v19 (F := Ideal) x1 (ix1 e))
    (p : Fin 100000) (q : Fin 64) :
    Host.scatterAdd (F := Ideal) (φ := .f32) scatter_S100000x64_S1300000x1_S1300000x64_1_0_0_1 z2 (val_main_v65 (F := Ideal) x1)
        (Host.gather gather_S100000x64_S1300000x1_S1300000x64_1_0_n_n_0_1_164 (Net.lin (val_main_v52 (F := Ideal) x0 x1 x2 x3 x4) x5 d) iS2) (ix2 p q) * d (ix2 p (0 : Fin 1))
      = val_main_v66 (F := Ideal) x0 x1 x2 x3 x4 x5 (ix2 p q) := by
  rw [hd]
  refine (core x1 (Net.lin (val_main_v52 (F := Ideal) x0 x1 x2 x3 x4) x5 d) (val_main_v53 (F := Ideal) x0 x1 x2 x3 x4 x5)
    (hTR2 x0 x1 x2 x3 x4 x5 d hd) z2 hz2
    (val_main_v65 (F := Ideal) x1) iS2 (dstcol' x1) hiS2 (val_main_v63 (F := Ideal) x0 x1 x2 x3 x4 x5) (hv2 x0 x1 x2 x3 x4 x5) p q).trans ?_
  unfold val_main_v66
  exact scatterAdd_congr (φ := .f32) scatter_S100000x64_S1300000x1_S1300000x64_1_0_0_1 (val_main_v65 (F := Ideal) x1) (val_main_v63 (F := Ideal) x0 x1 x2 x3 x4 x5)
    (val_main_v63 (F := Ideal) x0 x1 x2 x3 x4 x5) z2 (val_main_v64 (F := Ideal)) (ix2 p q) ((hz2 _).trans (z64 _).symm) (fun _ _ => rfl)

include hd in
/-- The pointwise stage after the second aggregation is the reference's last stage. -/
theorem P2 (b2 a2 : S1x64.Idx → EReal)
    (hb2 : ∀ q : Fin 64, b2 (ix2 (0 : Fin 1) q) = x6 (ix1 q)) (ha2 : ∀ q : Fin 64, a2 (ix2 (0 : Fin 1) q) = x7 (ix1 q))
    (z2 : S100000x64.Idx → EReal) (hz2 : ∀ i, z2 i = 0) (iS2 : IVec S1300000x1 32)
    (hiS2 : ∀ e : Fin 1300000, iS2 (ix2 e (0 : Fin 1)) = val_main_v19 (F := Ideal) x1 (ix1 e)) :
    Net.post (Host.scatterAdd (F := Ideal) (φ := .f32) scatter_S100000x64_S1300000x1_S1300000x64_1_0_0_1 z2 (val_main_v65 (F := Ideal) x1)
        (Host.gather gather_S100000x64_S1300000x1_S1300000x64_1_0_n_n_0_1_164 (Net.lin (val_main_v52 (F := Ideal) x0 x1 x2 x3 x4) x5 d) iS2)) d b2 a2
      = val_main_v75 (F := Ideal) x0 x1 x2 x3 x4 x5 x6 x7 := by
  funext i
  obtain ⟨p, q, rfl⟩ : ∃ (p : Fin 100000) (q : Fin 64), i = ix2 p q := ⟨i 0, i 1, eq_ix2 i⟩
  rw [post_at _ d b2 a2 x6 x7 hb2 ha2 p q, L2 x0 x1 x2 x3 x4 x5 d hd z2 hz2 iS2 hiS2 p q, val_main_v75_apply, val_main_v71_apply,
    val_main_v74_apply, val_main_v69_apply, val_main_v70_apply, val_main_cst_13_apply, val_main_v73_apply,
    val_main_v72_apply, val_main_v68_apply, val_main_v67_apply, i68, i73]
  generalize val_main_v66 (F := Ideal) x0 x1 x2 x3 x4 x5 (ix2 p q) = s
  exact act_ops _ _ _

/-! ## Both layers -/

include hd in
/-- The kernel program's function of the arguments is the reference's last stage. -/
theorem net_eq (b1 a1 b2 a2 : S1x64.Idx → EReal)
    (hb1 : ∀ q : Fin 64, b1 (ix2 (0 : Fin 1) q) = x3 (ix1 q)) (ha1 : ∀ q : Fin 64, a1 (ix2 (0 : Fin 1) q) = x4 (ix1 q))
    (hb2 : ∀ q : Fin 64, b2 (ix2 (0 : Fin 1) q) = x6 (ix1 q)) (ha2 : ∀ q : Fin 64, a2 (ix2 (0 : Fin 1) q) = x7 (ix1 q))
    (z1 z2 : S100000x64.Idx → EReal) (hz1 : ∀ i, z1 i = 0) (hz2 : ∀ i, z2 i = 0)
    (iD1 iD2 iS1 iS2 : IVec S1300000x1 32)
    (hiD1 : ∀ e : Fin 1300000, iD1 (ix2 e (0 : Fin 1)) = val_main_v6 (F := Ideal) x1 (ix1 e))
    (hiD2 : ∀ e : Fin 1300000, iD2 (ix2 e (0 : Fin 1)) = val_main_v6 (F := Ideal) x1 (ix1 e))
    (hiS1 : ∀ e : Fin 1300000, iS1 (ix2 e (0 : Fin 1)) = val_main_v19 (F := Ideal) x1 (ix1 e))
    (hiS2 : ∀ e : Fin 1300000, iS2 (ix2 e (0 : Fin 1)) = val_main_v19 (F := Ideal) x1 (ix1 e)) :
    Net.post (Host.scatterAdd (F := Ideal) (φ := .f32) scatter_S100000x64_S1300000x1_S1300000x64_1_0_0_1 z2 iD2
        (Host.gather gather_S100000x64_S1300000x1_S1300000x64_1_0_n_n_0_1_164
          (Net.lin (Net.post (Host.scatterAdd (F := Ideal) (φ := .f32) scatter_S100000x64_S1300000x1_S1300000x64_1_0_0_1 z1 iD1
              (Host.gather gather_S100000x64_S1300000x1_S1300000x64_1_0_n_n_0_1_164 (Net.lin x0 x2 d) iS1)) d b1 a1) x5 d) iS2))
      d b2 a2
    = val_main_v75 (F := Ideal) x0 x1 x2 x3 x4 x5 x6 x7 := by
  obtain rfl : iD1 = val_main_v42 (F := Ideal) x1 := col_ext _ _ fun e => (hiD1 e).trans (dstcol x1 e).symm
  obtain rfl : iD2 = val_main_v65 (F := Ideal) x1 := col_ext _ _ fun e => (hiD2 e).trans (dstcol' x1 e).symm
  rw [P1 x0 x1 x2 x3 x4 d hd b1 a1 hb1 ha1 z1 hz1 iS1 hiS1]
  exact P2 x0 x1 x2 x3 x4 x5 x6 x7 d hd b2 a2 hb2 ha2 z2 hz2 iS2 hiS2

end Cert.ReferenceIdeal.RefValue

end
-- ==== Proof.LibCalled.lean ====
/-
  Values moved to and from a called function's buffers.

  The operations of a function called from a host program move each operand from its buffer's own type to the
  value's type, and each result back, along the equation between the two types.  Moving a value to a buffer's
  type and straight back is the identity, whatever the buffer and whatever the equation: with the equation
  eliminated both moves are the identity.  Stated for an arbitrary typed reference, so that no particular
  (possibly very large) array type is ever compared.
-/
import Idealize.ShloMosaic.Lib.StableHlo

namespace Cert.Called

open Idealize.ShloMosaic Idealize.ShloMosaic.StableHlo

variable {sig : RefSig} {Val : EltTy → Type}

/-- A value moved to a typed reference's buffer type and back is the value. -/
theorem ofBuf_toBuf {T : BufTy} (x : TRef sig T) (v : T.Contents Val) : x.ofBuf (x.toBuf v) = v := by
  obtain ⟨r, h1, h2, h3⟩ := x
  subst h1
  rfl

/-- Contents of a typed reference's buffer moved to the value's type and back are the contents. -/
theorem toBuf_ofBuf {T : BufTy} (x : TRef sig T) (v : x.ref.ty.Contents Val) : x.toBuf (x.ofBuf v) = v := by
  obtain ⟨r, h1, h2, h3⟩ := x
  subst h1
  rfl

end Cert.Called
-- ==== Proof.KValue.lean ====
/-
  The kernel program's result as a function of its arguments.

  Walking the program's eight segments backwards from the result: the last launch's output is `post` of what the
  third stretch of host operations left; that stretch gathers the rows of the middle launch's output by the wrapped
  sources and scatter-adds them by the destinations; the middle launch's output is `lin` of a `post` of what the
  second stretch left, which aggregates the first launch's output the same way; the first launch's output is
  `lin` of the features, the first weights and the inverse-root degree column the opening stretches computed.  The
  column, the bias and slope rows and the index arrays are the same at every launch that reads them: no segment in
  between writes them.  Stated with the reference's stage functions for the shared host computations (the degree
  column, the index arrays), the result is exactly the left side of `net_eq`.
-/
import proofs.«120536_j1623497638364_2_alg».proof.Proof.Gen.KernelIdeal.Frame
import proofs.«120536_j1623497638364_2_alg».proof.Proof.KFinal0
import proofs.«120536_j1623497638364_2_alg».proof.Proof.KFinal1
import proofs.«120536_j1623497638364_2_alg».proof.Proof.KFinal2
import proofs.«120536_j1623497638364_2_alg».proof.Proof.RNet
import proofs.«120536_j1623497638364_2_alg».proof.Proof.LibColumns
import proofs.«120536_j1623497638364_2_alg».proof.Proof.LibCalled
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Net
open Idealize.ShloMosaic.Pipeline (Dat Cfg Window)

variable (m : (ℓ : Loc nD τ sig) → Buf (Elt Ideal) ℓ) (ρ : Dev nD → PrngReg) (c : Dev nD)

/-! ## At the first launch's entry -/

theorem V3_arg0 : V3 m ρ c main_arg0 = (m ((c : Thread nD τ).loc main_arg0)) := by
  show StableHlo.after hostOps0_2 (W2 m ρ c) (Proc.devRef .tc main_arg0) = _
  after_results
theorem V3_arg2 : V3 m ρ c main_arg2 = (m ((c : Thread nD τ).loc main_arg2)) := by
  show StableHlo.after hostOps0_2 (W2 m ρ c) (Proc.devRef .tc main_arg2) = _
  after_results
/-- After the first stretch: the test "degree positive", as the reference computes it. -/
theorem W1_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results; rfl
/-- After the first stretch: the inverse root of the degree, as the reference computes it. -/
theorem W1_v13 : W1 m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  after_results; rfl
theorem W1_cst2 : W1 m ρ c (Proc.devRef .tc main_cst_2) = Cert.ReferenceIdeal.Read.val_main_cst_2 (F := Ideal) := by
  show StableHlo.after hostOps0 (W0 m ρ c) (Proc.devRef .tc main_cst_2) = _
  after_results; rfl
/-- A value read at a buffer of the called `where` is the value: the buffer's type is the value's. -/
theorem strip12 (a : (⟨S100000, .i1⟩ : BufTy).Contents (Elt Ideal)) :
    (TRef.of (sig := sig) (T := ⟨S100000, .i1⟩) main_v12).ofBuf (Val := Elt Ideal) a = a := rfl
theorem strip13 (a : (⟨S100000, .f32⟩ : BufTy).Contents (Elt Ideal)) :
    (TRef.of (sig := sig) (T := ⟨S100000, .f32⟩) main_v13).ofBuf (Val := Elt Ideal) a = a := rfl
theorem stripc2 (a : (⟨S_, .f32⟩ : BufTy).Contents (Elt Ideal)) :
    (TRef.of (sig := sig) (T := ⟨S_, .f32⟩) main_cst_2).ofBuf (Val := Elt Ideal) a = a := rfl
theorem strip14 (a : (⟨S100000, .f32⟩ : BufTy).Contents (Elt Ideal)) :
    (TRef.of (sig := sig) (T := ⟨S100000, .f32⟩) main_v14).toBuf (Val := Elt Ideal) a = a := rfl

/-- After the called `where`: the guarded inverse root of the degree, as the reference computes it. -/
theorem W2_v14 : W2 m ρ c (Proc.devRef .tc main_v14) = Cert.ReferenceIdeal.Read.val_main_v14 (F := Ideal) (m ((c : Thread nD τ).loc main_arg1)) := by
  show StableHlo.after hostOps0_1 (W1 m ρ c) (Proc.devRef .tc main_v14) = _
  have h12 := W1_v12 m ρ c
  have h13 := W1_v13 m ρ c
  have hc2 := W1_cst2 m ρ c
  generalize W1 m ρ c = Wg at h12 h13 hc2 ⊢
  after_results
  rw [Cert.Called.ofBuf_toBuf, Cert.Called.ofBuf_toBuf, h12, h13, hc2]
  unfold Cert.ReferenceIdeal.Read.val_main_v14 Cert.ReferenceIdeal.Read.val_main_call0_v1 Cert.ReferenceIdeal.Read.val_main_call0_v0
  generalize Cert.ReferenceIdeal.Read.val_main_v12 (F := Ideal) (m ((c : Thread nD τ).loc main_arg1)) = a12
  generalize Cert.ReferenceIdeal.Read.val_main_v13 (F := Ideal) (m ((c : Thread nD τ).loc main_arg1)) = a13
  generalize Cert.ReferenceIdeal.Read.val_main_cst_2 (F := Ideal) = a2
  rw [strip12, strip13, stripc2, strip14]
/-- The scale column is the reference's inverse-root degree, as a column. -/
theorem V3_v15 : V3 m ρ c main_v15 = (shapeCast S100000x1 (Cert.ReferenceIdeal.Read.val_main_v14 (F := Ideal) (m ((c : Thread nD τ).loc main_arg1))) shapeCasts_S100000_S100000x1) := by
  show StableHlo.after hostOps0_2 (W2 m ρ c) (Proc.devRef .tc main_v15) = _
  have h14 := W2_v14 m ρ c
  generalize W2 m ρ c = Wg at h14 ⊢
  after_results
  rw [h14]
  generalize Cert.ReferenceIdeal.Read.val_main_v14 (F := Ideal) (m ((c : Thread nD τ).loc main_arg1)) = y
  rfl
theorem W3_v3 : W3 m ρ c (Proc.devRef .tc main_v3) = Cert.ReferenceIdeal.Read.val_main_v3 (F := Ideal) (m ((c : Thread nD τ).loc main_arg1)) := by
  show StableHlo.after hostOps0_2 (W2 m ρ c) (Proc.devRef .tc main_v3) = _
  after_results; rfl
theorem W3_v6 : W3 m ρ c (Proc.devRef .tc main_v6) = Cert.ReferenceIdeal.Read.val_main_v6 (F := Ideal) (m ((c : Thread nD τ).loc main_arg1)) := by
  show StableHlo.after hostOps0_2 (W2 m ρ c) (Proc.devRef .tc main_v6) = _
  after_results; rfl
theorem W3_arg3 : W3 m ρ c (Proc.devRef .tc main_arg3) = (m ((c : Thread nD τ).loc main_arg3)) := by
  show StableHlo.after hostOps0_2 (W2 m ρ c) (Proc.devRef .tc main_arg3) = _
  after_results
theorem W3_arg4 : W3 m ρ c (Proc.devRef .tc main_arg4) = (m ((c : Thread nD τ).loc main_arg4)) := by
  show StableHlo.after hostOps0_2 (W2 m ρ c) (Proc.devRef .tc main_arg4) = _
  after_results
theorem W3_arg5 : W3 m ρ c (Proc.devRef .tc main_arg5) = (m ((c : Thread nD τ).loc main_arg5)) := by
  show StableHlo.after hostOps0_2 (W2 m ρ c) (Proc.devRef .tc main_arg5) = _
  after_results
theorem W3_arg6 : W3 m ρ c (Proc.devRef .tc main_arg6) = (m ((c : Thread nD τ).loc main_arg6)) := by
  show StableHlo.after hostOps0_2 (W2 m ρ c) (Proc.devRef .tc main_arg6) = _
  after_results
theorem W3_arg7 : W3 m ρ c (Proc.devRef .tc main_arg7) = (m ((c : Thread nD τ).loc main_arg7)) := by
  show StableHlo.after hostOps0_2 (W2 m ρ c) (Proc.devRef .tc main_arg7) = _
  after_results

/-! ## Across the first launch -/

theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
/-- The scale column is an input of the first launch: it leaves it as it found it. -/
theorem W4_v15 : W4 m ρ c (Proc.devRef .tc main_v15) = (shapeCast S100000x1 (Cert.ReferenceIdeal.Read.val_main_v14 (F := Ideal) (m ((c : Thread nD τ).loc main_arg1))) shapeCasts_S100000_S100000x1) :=
  ((W4_arr m ρ c 2).trans (((dat0 (V3 m ρ) c).arrAt_in 2 rfl _).trans (A_eq0 (V3 m ρ) c 2))).trans (V3_v15 m ρ c)
/-- The first launch's output: `lin` of the features, the first weights and the scale column. -/
theorem W4_v16 : W4 m ρ c (Proc.devRef .tc main_v16) = (Net.lin (m ((c : Thread nD τ).loc main_arg0)) (m ((c : Thread nD τ).loc main_arg2)) (shapeCast S100000x1 (Cert.ReferenceIdeal.Read.val_main_v14 (F := Ideal) (m ((c : Thread nD τ).loc main_arg1))) shapeCasts_S100000_S100000x1)) := by
  refine ((W4_arr m ρ c 3).trans (Final0.final (V3 m ρ) c)).trans ?_
  rw [V3_arg0, V3_arg2, V3_v15]

/-! ## At the middle launch's entry -/

set_option maxHeartbeats 4000000 in
/-- The first aggregation. -/
theorem V5_v26 : V5 m ρ c main_v26 = (Host.scatterAdd (F := Ideal) (φ := .f32) Cert.ReferenceIdeal.scatter_S100000x64_S1300000x1_S1300000x64_1_0_0_1 (Cert.ReferenceIdeal.Read.val_main_v41 (F := Ideal)) (Cert.ReferenceIdeal.Read.val_main_v42 (F := Ideal) (m ((c : Thread nD τ).loc main_arg1)))
        (Host.gather Cert.ReferenceIdeal.gather_S100000x64_S1300000x1_S1300000x64_1_0_n_n_0_1_164 (Net.lin (m ((c : Thread nD τ).loc main_arg0)) (m ((c : Thread nD τ).loc main_arg2)) (shapeCast S100000x1 (Cert.ReferenceIdeal.Read.val_main_v14 (F := Ideal) (m ((c : Thread nD τ).loc main_arg1))) shapeCasts_S100000_S100000x1)) (Cert.ReferenceIdeal.Read.val_main_v36 (F := Ideal) (m ((c : Thread nD τ).loc main_arg1))))) := by
  show StableHlo.after hostOps1 (W4 m ρ c) (Proc.devRef .tc main_v26) = _
  after_results
  rw [W4_v6, W4_v3, W4_v16]
  rfl
theorem V5_v15 : V5 m ρ c main_v15 = (shapeCast S100000x1 (Cert.ReferenceIdeal.Read.val_main_v14 (F := Ideal) (m ((c : Thread nD τ).loc main_arg1))) shapeCasts_S100000_S100000x1) := by
  show StableHlo.after hostOps1 (W4 m ρ c) (Proc.devRef .tc main_v15) = _
  after_results
  rw [W4_v15]
theorem V5_v27 : V5 m ρ c main_v27 = (shapeCast S1x64 (m ((c : Thread nD τ).loc main_arg3)) shapeCasts_S64_S1x64) := by
  show StableHlo.after hostOps1 (W4 m ρ c) (Proc.devRef .tc main_v27) = _
  after_results
  rw [W4_arg3]
  rfl
theorem V5_v28 : V5 m ρ c main_v28 = (shapeCast S1x64 (m ((c : Thread nD τ).loc main_arg4)) shapeCasts_S64_S1x64) := by
  show StableHlo.after hostOps1 (W4 m ρ c) (Proc.devRef .tc main_v28) = _
  after_results
  rw [W4_arg4]
  rfl
theorem V5_arg5 : V5 m ρ c main_arg5 = (m ((c : Thread nD τ).loc main_arg5)) := by
  show StableHlo.after hostOps1 (W4 m ρ c) (Proc.devRef .tc main_arg5) = _
  after_results
  rw [W4_arg5]
theorem W5_v3 : W5 m ρ c (Proc.devRef .tc main_v3) = Cert.ReferenceIdeal.Read.val_main_v3 (F := Ideal) (m ((c : Thread nD τ).loc main_arg1)) := by
  show StableHlo.after hostOps1 (W4 m ρ c) (Proc.devRef .tc main_v3) = _
  after_results
  rw [W4_v3]
theorem W5_v6 : W5 m ρ c (Proc.devRef .tc main_v6) = Cert.ReferenceIdeal.Read.val_main_v6 (F := Ideal) (m ((c : Thread nD τ).loc main_arg1)) := by
  show StableHlo.after hostOps1 (W4 m ρ c) (Proc.devRef .tc main_v6) = _
  after_results
  rw [W4_v6]
theorem W5_arg6 : W5 m ρ c (Proc.devRef .tc main_arg6) = (m ((c : Thread nD τ).loc main_arg6)) := by
  show StableHlo.after hostOps1 (W4 m ρ c) (Proc.devRef .tc main_arg6) = _
  after_results
  rw [W4_arg6]
theorem W5_arg7 : W5 m ρ c (Proc.devRef .tc main_arg7) = (m ((c : Thread nD τ).loc main_arg7)) := by
  show StableHlo.after hostOps1 (W4 m ρ c) (Proc.devRef .tc main_arg7) = _
  after_results
  rw [W4_arg7]

/-! ## Across the middle launch -/

theorem W6_v3 : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.Read.val_main_v6 (F := Ideal) (m ((c : Thread nD τ).loc main_arg1)) :=
  (W6_of_ne m ρ c main_v6 (by decide)).trans (W5_v6 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)
/-- The scale column is an input of the middle launch: it leaves it as it found it. -/
theorem W6_v15 : W6 m ρ c (Proc.devRef .tc main_v15) = (shapeCast S100000x1 (Cert.ReferenceIdeal.Read.val_main_v14 (F := Ideal) (m ((c : Thread nD τ).loc main_arg1))) shapeCasts_S100000_S100000x1) :=
  ((W6_arr m ρ c 1).trans (((dat1 (V5 m ρ) c).arrAt_in 1 rfl _).trans (A_eq1 (V5 m ρ) c 1))).trans (V5_v15 m ρ c)
/-- The middle launch's output: `lin` of the `post` of the first aggregation. -/
theorem W6_v29 : W6 m ρ c (Proc.devRef .tc main_v29) = (Net.lin (Net.post (Host.scatterAdd (F := Ideal) (φ := .f32) Cert.ReferenceIdeal.scatter_S100000x64_S1300000x1_S1300000x64_1_0_0_1 (Cert.ReferenceIdeal.Read.val_main_v41 (F := Ideal)) (Cert.ReferenceIdeal.Read.val_main_v42 (F := Ideal) (m ((c : Thread nD τ).loc main_arg1)))
        (Host.gather Cert.ReferenceIdeal.gather_S100000x64_S1300000x1_S1300000x64_1_0_n_n_0_1_164 (Net.lin (m ((c : Thread nD τ).loc main_arg0)) (m ((c : Thread nD τ).loc main_arg2)) (shapeCast S100000x1 (Cert.ReferenceIdeal.Read.val_main_v14 (F := Ideal) (m ((c : Thread nD τ).loc main_arg1))) shapeCasts_S100000_S100000x1)) (Cert.ReferenceIdeal.Read.val_main_v36 (F := Ideal) (m ((c : Thread nD τ).loc main_arg1))))) (shapeCast S100000x1 (Cert.ReferenceIdeal.Read.val_main_v14 (F := Ideal) (m ((c : Thread nD τ).loc main_arg1))) shapeCasts_S100000_S100000x1) (shapeCast S1x64 (m ((c : Thread nD τ).loc main_arg3)) shapeCasts_S64_S1x64) (shapeCast S1x64 (m ((c : Thread nD τ).loc main_arg4)) shapeCasts_S64_S1x64)) (m ((c : Thread nD τ).loc main_arg5)) (shapeCast S100000x1 (Cert.ReferenceIdeal.Read.val_main_v14 (F := Ideal) (m ((c : Thread nD τ).loc main_arg1))) shapeCasts_S100000_S100000x1)) := by
  refine ((W6_arr m ρ c 5).trans (Final1.final (V5 m ρ) c)).trans ?_
  rw [V5_v26, V5_v15, V5_v27, V5_v28, V5_arg5]

/-! ## At the last launch's entry -/

set_option maxHeartbeats 4000000 in
/-- The second aggregation. -/
theorem V7_v39 : V7 m ρ c main_v39 = (Host.scatterAdd (F := Ideal) (φ := .f32) Cert.ReferenceIdeal.scatter_S100000x64_S1300000x1_S1300000x64_1_0_0_1 (Cert.ReferenceIdeal.Read.val_main_v64 (F := Ideal)) (Cert.ReferenceIdeal.Read.val_main_v65 (F := Ideal) (m ((c : Thread nD τ).loc main_arg1)))
        (Host.gather Cert.ReferenceIdeal.gather_S100000x64_S1300000x1_S1300000x64_1_0_n_n_0_1_164 (Net.lin (Net.post (Host.scatterAdd (F := Ideal) (φ := .f32) Cert.ReferenceIdeal.scatter_S100000x64_S1300000x1_S1300000x64_1_0_0_1 (Cert.ReferenceIdeal.Read.val_main_v41 (F := Ideal)) (Cert.ReferenceIdeal.Read.val_main_v42 (F := Ideal) (m ((c : Thread nD τ).loc main_arg1)))
        (Host.gather Cert.ReferenceIdeal.gather_S100000x64_S1300000x1_S1300000x64_1_0_n_n_0_1_164 (Net.lin (m ((c : Thread nD τ).loc main_arg0)) (m ((c : Thread nD τ).loc main_arg2)) (shapeCast S100000x1 (Cert.ReferenceIdeal.Read.val_main_v14 (F := Ideal) (m ((c : Thread nD τ).loc main_arg1))) shapeCasts_S100000_S100000x1)) (Cert.ReferenceIdeal.Read.val_main_v36 (F := Ideal) (m ((c : Thread nD τ).loc main_arg1))))) (shapeCast S100000x1 (Cert.ReferenceIdeal.Read.val_main_v14 (F := Ideal) (m ((c : Thread nD τ).loc main_arg1))) shapeCasts_S100000_S100000x1) (shapeCast S1x64 (m ((c : Thread nD τ).loc main_arg3)) shapeCasts_S64_S1x64) (shapeCast S1x64 (m ((c : Thread nD τ).loc main_arg4)) shapeCasts_S64_S1x64)) (m ((c : Thread nD τ).loc main_arg5)) (shapeCast S100000x1 (Cert.ReferenceIdeal.Read.val_main_v14 (F := Ideal) (m ((c : Thread nD τ).loc main_arg1))) shapeCasts_S100000_S100000x1)) (Cert.ReferenceIdeal.Read.val_main_v59 (F := Ideal) (m ((c : Thread nD τ).loc main_arg1))))) := by
  show StableHlo.after hostOps2 (W6 m ρ c) (Proc.devRef .tc main_v39) = _
  after_results
  rw [W6_v6, W6_v3, W6_v29]
  rfl
theorem V7_v15 : V7 m ρ c main_v15 = (shapeCast S100000x1 (Cert.ReferenceIdeal.Read.val_main_v14 (F := Ideal) (m ((c : Thread nD τ).loc main_arg1))) shapeCasts_S100000_S100000x1) := by
  show StableHlo.after hostOps2 (W6 m ρ c) (Proc.devRef .tc main_v15) = _
  after_results
  rw [W6_v15]
theorem V7_v40 : V7 m ρ c main_v40 = (shapeCast S1x64 (m ((c : Thread nD τ).loc main_arg6)) shapeCasts_S64_S1x64) := by
  show StableHlo.after hostOps2 (W6 m ρ c) (Proc.devRef .tc main_v40) = _
  after_results
  rw [W6_arg6]
  rfl
theorem V7_v41 : V7 m ρ c main_v41 = (shapeCast S1x64 (m ((c : Thread nD τ).loc main_arg7)) shapeCasts_S64_S1x64) := by
  show StableHlo.after hostOps2 (W6 m ρ c) (Proc.devRef .tc main_v41) = _
  after_results
  rw [W6_arg7]
  rfl

/-! ## The result -/

/-- The result buffer after the run, as the composed function of the arguments. -/
theorem result : V8 m ρ c main_v42 = Net.post (Host.scatterAdd (F := Ideal) (φ := .f32) Cert.ReferenceIdeal.scatter_S100000x64_S1300000x1_S1300000x64_1_0_0_1 (Cert.ReferenceIdeal.Read.val_main_v64 (F := Ideal)) (Cert.ReferenceIdeal.Read.val_main_v65 (F := Ideal) (m ((c : Thread nD τ).loc main_arg1)))
        (Host.gather Cert.ReferenceIdeal.gather_S100000x64_S1300000x1_S1300000x64_1_0_n_n_0_1_164 (Net.lin (Net.post (Host.scatterAdd (F := Ideal) (φ := .f32) Cert.ReferenceIdeal.scatter_S100000x64_S1300000x1_S1300000x64_1_0_0_1 (Cert.ReferenceIdeal.Read.val_main_v41 (F := Ideal)) (Cert.ReferenceIdeal.Read.val_main_v42 (F := Ideal) (m ((c : Thread nD τ).loc main_arg1)))
        (Host.gather Cert.ReferenceIdeal.gather_S100000x64_S1300000x1_S1300000x64_1_0_n_n_0_1_164 (Net.lin (m ((c : Thread nD τ).loc main_arg0)) (m ((c : Thread nD τ).loc main_arg2)) (shapeCast S100000x1 (Cert.ReferenceIdeal.Read.val_main_v14 (F := Ideal) (m ((c : Thread nD τ).loc main_arg1))) shapeCasts_S100000_S100000x1)) (Cert.ReferenceIdeal.Read.val_main_v36 (F := Ideal) (m ((c : Thread nD τ).loc main_arg1))))) (shapeCast S100000x1 (Cert.ReferenceIdeal.Read.val_main_v14 (F := Ideal) (m ((c : Thread nD τ).loc main_arg1))) shapeCasts_S100000_S100000x1) (shapeCast S1x64 (m ((c : Thread nD τ).loc main_arg3)) shapeCasts_S64_S1x64) (shapeCast S1x64 (m ((c : Thread nD τ).loc main_arg4)) shapeCasts_S64_S1x64)) (m ((c : Thread nD τ).loc main_arg5)) (shapeCast S100000x1 (Cert.ReferenceIdeal.Read.val_main_v14 (F := Ideal) (m ((c : Thread nD τ).loc main_arg1))) shapeCasts_S100000_S100000x1)) (Cert.ReferenceIdeal.Read.val_main_v59 (F := Ideal) (m ((c : Thread nD τ).loc main_arg1))))) (shapeCast S100000x1 (Cert.ReferenceIdeal.Read.val_main_v14 (F := Ideal) (m ((c : Thread nD τ).loc main_arg1))) shapeCasts_S100000_S100000x1) (shapeCast S1x64 (m ((c : Thread nD τ).loc main_arg6)) shapeCasts_S64_S1x64) (shapeCast S1x64 (m ((c : Thread nD τ).loc main_arg7)) shapeCasts_S64_S1x64) := by
  refine ((W8_arr m ρ c 4).trans (Final2.final (V7 m ρ) c)).trans ?_
  rw [V7_v39, V7_v15, V7_v40, V7_v41]

/-- The kernel program's result is the reference's last stage of the same arguments. -/
theorem value : V8 m ρ c main_v42 = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [result]
  exact Cert.ReferenceIdeal.RefValue.net_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (shapeCast S100000x1 (Cert.ReferenceIdeal.Read.val_main_v14 (F := Ideal) (m ((c : Thread nD τ).loc main_arg1))) shapeCasts_S100000_S100000x1)
    (fun p => Cert.Columns.shapeCast_a_a1_apply _ _ p 0)
    (shapeCast S1x64 (m ((c : Thread nD τ).loc main_arg3)) shapeCasts_S64_S1x64) (shapeCast S1x64 (m ((c : Thread nD τ).loc main_arg4)) shapeCasts_S64_S1x64) (shapeCast S1x64 (m ((c : Thread nD τ).loc main_arg6)) shapeCasts_S64_S1x64) (shapeCast S1x64 (m ((c : Thread nD τ).loc main_arg7)) shapeCasts_S64_S1x64)
    (fun q => shapeCast_a_1a_apply _ _ 0 q) (fun q => shapeCast_a_1a_apply _ _ 0 q)
    (fun q => shapeCast_a_1a_apply _ _ 0 q) (fun q => shapeCast_a_1a_apply _ _ 0 q)
    (Cert.ReferenceIdeal.Read.val_main_v41 (F := Ideal)) (Cert.ReferenceIdeal.Read.val_main_v64 (F := Ideal)) (Cert.ReferenceIdeal.RefValue.z41) (Cert.ReferenceIdeal.RefValue.z64)
    (Cert.ReferenceIdeal.Read.val_main_v42 (F := Ideal) (m ((c : Thread nD τ).loc main_arg1))) (Cert.ReferenceIdeal.Read.val_main_v65 (F := Ideal) (m ((c : Thread nD τ).loc main_arg1)))
    (Cert.ReferenceIdeal.Read.val_main_v36 (F := Ideal) (m ((c : Thread nD τ).loc main_arg1))) (Cert.ReferenceIdeal.Read.val_main_v59 (F := Ideal) (m ((c : Thread nD τ).loc main_arg1)))
    (Cert.ReferenceIdeal.RefValue.dstcol _) (Cert.ReferenceIdeal.RefValue.dstcol' _)
    (Cert.ReferenceIdeal.RefValue.srccol _) (Cert.ReferenceIdeal.RefValue.srccol' _)

end Cert.KernelIdeal.KValue

end
-- ==== Proof.lean ====
/-
  A two-layer graph convolution, kernel program against reference, at exact values.

  Per layer both programs compute, for node `p` and feature `c`,
      the sum over the edges `e` landing on `p` of  h (src e, c) · d (src e) · d (p),
  with `d` the inverse root of the node's degree.  The reference scales each gathered row by `d (src e) · d (dst e)`
  before the scatter-add; the kernel program scales the rows of `h` by `d` before the gather (inside its dense
  stages) and the rows of the sum by `d` after the scatter-add.  An edge lands on `p` only when its destination is
  `p`, and `d p` is a real number that is not negative, so it may be taken out of the sum of extended reals.
  Around the two aggregations the programs apply the same matrix products, biases and leaky units, the kernel
  program block of rows by block of rows, the reference on whole arrays.

  The kernel program's run ends with its result at the function `KValue.value` names (the three launches' output
  arrays folded through the host operations between them); the reference's run ends with its result at its last
  stage; the two are one function of arguments that agree.  The ideal pass rewrote nothing, so the idealization is
  the program's own text read at exact values.
-/
import proofs.«120536_j1623497638364_2_alg».proof.Defs
import proofs.«120536_j1623497638364_2_alg».proof.Proof.Gen.Kernel
import proofs.«120536_j1623497638364_2_alg».proof.Proof.Gen.Kernel.Skeleton
import proofs.«120536_j1623497638364_2_alg».proof.Proof.Gen.Kernel.Launch
import proofs.«120536_j1623497638364_2_alg».proof.Proof.Gen.Kernel.Points
import proofs.«120536_j1623497638364_2_alg».proof.Proof.Gen.Kernel.Frame
import proofs.«120536_j1623497638364_2_alg».proof.Proof.Gen.KernelIdeal
import proofs.«120536_j1623497638364_2_alg».proof.Proof.Gen.KernelIdeal.Skeleton
import proofs.«120536_j1623497638364_2_alg».proof.Proof.Gen.KernelIdeal.Launch
import proofs.«120536_j1623497638364_2_alg».proof.Proof.Gen.KernelIdeal.Points
import proofs.«120536_j1623497638364_2_alg».proof.Proof.Gen.KernelIdeal.Frame
import proofs.«120536_j1623497638364_2_alg».proof.Proof.Gen.ReferenceIdeal
import proofs.«120536_j1623497638364_2_alg».proof.Proof.Gen.Pre_finite_inputs
import proofs.«120536_j1623497638364_2_alg».proof.Proof.RefRead
import proofs.«120536_j1623497638364_2_alg».proof.Proof.KRun
import proofs.«120536_j1623497638364_2_alg».proof.Proof.KValue
import Idealize.ShloMosaic.Adequacy
import Idealize.ShloMosaic.Init

noncomputable section

namespace Cert.Proof

open Idealize.ShloMosaic Idealize.SL.Sem

/-- The kernel program, as printed, runs and leaves its arguments unchanged. -/
theorem frame_k : Cert.frame_Kernel := fun m ρ _ => Cert.Kernel.Gen.frame m ρ

/-- So does the kernel program read at exact values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs run, and they end with equal results: the kernel
    program's result is the reference's last stage of its own arguments, which are the reference's arguments. -/
theorem algebraic : Cert.algebraic_KernelIdeal_ReferenceIdeal := by
  intro m ρ m' ρ' _ hagree
  refine ⟨fun c => Cert.KernelIdeal.Gen.V8 m ρ c Cert.KernelIdeal.main_v42, Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.KValue.value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
